-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S10000x1 : Shape := ⟨2, ![10000, 1]⟩
abbrev S1x128 : Shape := ⟨2, ![1, 128]⟩

abbrev nBuf : Space → Nat
  | .hbm => 61
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  What both programs compute: one graph-convolution layer with self loops and symmetric normalisation.
  The edge list `e` is a [2, 1600000] integer array; its two rows, each followed by the node numbers `0 … 99999` (the self
  loops), are the sources and the destinations of the 1700000 edges. A node's degree is the number of edges ending at
  it; `invSqrtDeg` is `deg^(-1/2)` where the degree is positive and `0` elsewhere; an edge's factor is the product of
  that quantity at its two endpoints (an index is first brought into range by adding 100000 when it is negative). The
  layer is, with `y = x · Wᵀ`:  out(n, :) = (sum over the edges `j` ending at `n` of `y(src j, :) · factor j`) + b.
  The index arithmetic, the two gathers and the two scatter-adds are the host's operations in both programs and are
  kept here as those operations; the three dense steps are written index by index.
-/
import proofs.«119251_j37220186587487_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Facts₀ Idealize.ShloMosaic Idealize.ShloMosaic.ValueIdx

/-! ## The dense steps, index by index -/

/-- The features times the transposed weights: entry `(r, o)` is the sum over `k` of `x(r, k) · W(o, k)`. -/
def linear (x : FVec Ideal S100000x128 .f32) (W : FVec Ideal S128x128 .f32) : FVec Ideal S100000x128 .f32 :=
  fun i => ∑ k : Fin 128, x (ix2 ⟨(i 0).val, (i 0).isLt⟩ k) * W (ix2 ⟨(i 1).val, (i 1).isLt⟩ k)

/-- Every row of `xg` times that row's entry of the one-column array `nrm`. -/
def scaleRows (xg : FVec Ideal S1700000x128 .f32) (nrm : FVec Ideal S1700000x1 .f32) : FVec Ideal S1700000x128 .f32 :=
  fun i => xg i * nrm (ix2 ⟨(i 0).val, (i 0).isLt⟩ (0 : Fin 1))

/-- Every row of `agg` plus the row vector `b`. -/
def addRow (agg : FVec Ideal S100000x128 .f32) (b : FVec Ideal S128 .f32) : FVec Ideal S100000x128 .f32 :=
  fun i => agg i + b (ix1 ⟨(i 1).val, (i 1).isLt⟩)

/-! ## The edges, their factors, and the layer -/

variable {F : FTy → Type} [FloatOps F]

/-- The edges' sources: row 0 of the edge list, then every node once (the self loops). -/
def srcOf (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

/-- The edges' destinations: row 1 of the edge list, then every node once. -/
def dstOf (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- A per-edge vector as a one-column array (the form the host's gather and scatter take their indices in). -/
def column {α : Type} (v : S1700000.Idx → α) : S1700000x1.Idx → α :=
  broadcastInDim S1700000x1 ![0] bcast_S1700000_S1700000x1_0 v

/-- A negative node number counts from the end: 100000 is added to it. -/
def wrapNeg (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A node's degree: one added per edge ending at it. -/
def degree (d : IVec S1700000 32) : FVec F S100000 .f32 :=
  Host.scatterAdd scatter_S100000_S1700000x1_S1700000_n_0_0_1 (broadcastInDim S100000 ![] bcast_S_S100000 (constant S_ .f32 0x00000000#32))
    (column d) (broadcastInDim S1700000 ![] bcast_S_S1700000 (constant S_ .f32 0x3F800000#32))

/-- `deg^(-1/2)` where the degree is positive, `0` elsewhere. -/
def invSqrtDeg (d : IVec S1700000 32) : FVec F S100000 .f32 :=
  select (cmpf .ogt (degree (F := F) d) (broadcastInDim S100000 ![] bcast_S_S100000 (constant S_ .f32 0x00000000#32)))
    (Host.rsqrt (degree (F := F) d)) (broadcastInDim S100000 ![] bcast_S_S100000 (constant S_ .f32 0x00000000#32))

/-- An edge's factor: `invSqrtDeg` at its source times `invSqrtDeg` at its destination. -/
def edgeNorm (e : IVec S2x1600000 32) : FVec F S1700000 .f32 :=
  mulf (Host.gather gather_S100000_S1700000x1_S1700000_n_0_n_n_0_1_1 (invSqrtDeg (F := F) (dstOf e)) (column (wrapNeg (srcOf e))))
    (Host.gather gather_S100000_S1700000x1_S1700000_n_0_n_n_0_1_1 (invSqrtDeg (F := F) (dstOf e)) (column (wrapNeg (dstOf e))))

/-- The layer. -/
def gcn (x : FVec Ideal S100000x128 .f32) (e : IVec S2x1600000 32) (W : FVec Ideal S128x128 .f32) (b : FVec Ideal S128 .f32) :
    FVec Ideal S100000x128 .f32 :=
  addRow
    (Host.scatterAdd scatter_S100000x128_S1700000x1_S1700000x128_1_0_0_1
      (broadcastInDim S100000x128 ![] bcast_S_S100000x128 (constant S_ .f32 0x00000000#32))
      (column (dstOf e))
      (scaleRows (Host.gather gather_S100000x128_S1700000x1_S1700000x128_1_0_n_n_0_1_1128 (linear x W) (column (wrapNeg (srcOf e))))
        (column (edgeNorm (F := Ideal) e))))
    b

end Cert.KernelIdeal.Spec

end
-- ==== Proof.KPrefix.lean ====
/-
  The three stretches of host operations before the first region, read one at a time from ARBITRARY entry contents
  `X`: what each leaves in the buffers that later segments read — the edges' sources and destinations, the
  positive-degree mask, the inverse square roots, the selection between them and zero, the edges' factors — and that it
  leaves the features and the weights alone. Composed, they give the entry contents of the first region.
-/
import proofs.«119251_j37220186587487_1_alg».proof.Proof.Gen.KernelIdeal.Frame
import proofs.«119251_j37220186587487_1_alg».proof.Proof.Spec
import Idealize.ShloMosaic.Lib.StableHlo.Run

set_option maxRecDepth 16384

noncomputable section

namespace Cert.KernelIdeal.KPrefix

open Cert.KernelIdeal Cert.KernelIdeal.Facts₀ Cert.KernelIdeal.Gen Cert.KernelIdeal.Spec
open Idealize.ShloMosaic Idealize.ShloMosaic.TcCoe Idealize.SL.Sem Idealize.ShloMosaic.StableHlo

variable (X : Valuation τ sig (Elt Ideal))

/-! ## The third stretch: the edges' factors from the inverse square-root degrees and the endpoints -/

set_option maxHeartbeats 4000000 in
theorem third_norm : (StableHlo.after (hostOps0_2 (F := Ideal)) X (Proc.devRef .tc main_v29) : FVec Ideal S1700000 .f32)
    = mulf (F := Ideal) (s := S1700000) (φ := .f32) (Host.gather gather_S100000_S1700000x1_S1700000_n_0_n_n_0_1_1 (X (Proc.devRef .tc main_v14)) (column (wrapNeg (X (Proc.devRef .tc main_v3)))))
        (Host.gather gather_S100000_S1700000x1_S1700000_n_0_n_n_0_1_1 (X (Proc.devRef .tc main_v14)) (column (wrapNeg (X (Proc.devRef .tc main_v6))))) := by
  after_results <;> rfl

set_option maxHeartbeats 4000000 in
theorem third_src : StableHlo.after (hostOps0_2 (F := Ideal)) X (Proc.devRef .tc main_v3) = X (Proc.devRef .tc main_v3) := by
  after_results <;> rfl
set_option maxHeartbeats 4000000 in
theorem third_dst : StableHlo.after (hostOps0_2 (F := Ideal)) X (Proc.devRef .tc main_v6) = X (Proc.devRef .tc main_v6) := by
  after_results <;> rfl
set_option maxHeartbeats 4000000 in
theorem third_x : StableHlo.after (hostOps0_2 (F := Ideal)) X (Proc.devRef .tc main_arg0) = X (Proc.devRef .tc main_arg0) := by
  after_results <;> rfl
set_option maxHeartbeats 4000000 in
theorem third_w : StableHlo.after (hostOps0_2 (F := Ideal)) X (Proc.devRef .tc main_arg2) = X (Proc.devRef .tc main_arg2) := by
  after_results <;> rfl

/-! ## The second stretch: the selection between the inverse square root and zero -/

set_option maxHeartbeats 4000000 in
theorem second_sel : (StableHlo.after (hostOps0_1 (F := Ideal)) X (Proc.devRef .tc main_v14) : FVec Ideal S100000 .f32)
    = select (X (Proc.devRef .tc main_v12)) (X (Proc.devRef .tc main_v13))
        (broadcastInDim S100000 ![] Facts₀.bcast_S_S100000 (X (Proc.devRef .tc main_cst_2))) := by
  after_results <;> rfl

set_option maxHeartbeats 4000000 in
theorem second_src : StableHlo.after (hostOps0_1 (F := Ideal)) X (Proc.devRef .tc main_v3) = X (Proc.devRef .tc main_v3) := by
  after_results <;> rfl
set_option maxHeartbeats 4000000 in
theorem second_dst : StableHlo.after (hostOps0_1 (F := Ideal)) X (Proc.devRef .tc main_v6) = X (Proc.devRef .tc main_v6) := by
  after_results <;> rfl
set_option maxHeartbeats 4000000 in
theorem second_x : StableHlo.after (hostOps0_1 (F := Ideal)) X (Proc.devRef .tc main_arg0) = X (Proc.devRef .tc main_arg0) := by
  after_results <;> rfl
set_option maxHeartbeats 4000000 in
theorem second_w : StableHlo.after (hostOps0_1 (F := Ideal)) X (Proc.devRef .tc main_arg2) = X (Proc.devRef .tc main_arg2) := by
  after_results <;> rfl

/-! ## The first stretch: the endpoints, the degrees, their comparison with zero and their inverse square roots -/

set_option maxHeartbeats 4000000 in
theorem first_src : (StableHlo.after (hostOps0 (F := Ideal)) X (Proc.devRef .tc main_v3) : IVec S1700000 32) = srcOf (X (Proc.devRef .tc main_arg1)) := by
  after_results <;> rfl
set_option maxHeartbeats 4000000 in
theorem first_dst : (StableHlo.after (hostOps0 (F := Ideal)) X (Proc.devRef .tc main_v6) : IVec S1700000 32) = dstOf (X (Proc.devRef .tc main_arg1)) := by
  after_results <;> rfl
set_option maxHeartbeats 4000000 in
theorem first_pos : (StableHlo.after (hostOps0 (F := Ideal)) X (Proc.devRef .tc main_v12) : IVec S100000 1)
    = cmpf .ogt (degree (F := Ideal) (dstOf (X (Proc.devRef .tc main_arg1)))) (broadcastInDim S100000 ![] Facts₀.bcast_S_S100000 (constant S_ .f32 0x00000000#32)) := by
  after_results <;> rfl
set_option maxHeartbeats 4000000 in
theorem first_rsqrt : (StableHlo.after (hostOps0 (F := Ideal)) X (Proc.devRef .tc main_v13) : FVec Ideal S100000 .f32)
    = Host.rsqrt (degree (F := Ideal) (dstOf (X (Proc.devRef .tc main_arg1)))) := by
  after_results <;> rfl
set_option maxHeartbeats 4000000 in
theorem first_zero : (StableHlo.after (hostOps0 (F := Ideal)) X (Proc.devRef .tc main_cst_2) : FVec Ideal S_ .f32) = constant (F := Ideal) S_ .f32 0x00000000#32 := by
  after_results <;> rfl
set_option maxHeartbeats 4000000 in
theorem first_x : StableHlo.after (hostOps0 (F := Ideal)) X (Proc.devRef .tc main_arg0) = X (Proc.devRef .tc main_arg0) := by
  after_results <;> rfl
set_option maxHeartbeats 4000000 in
theorem first_w : StableHlo.after (hostOps0 (F := Ideal)) X (Proc.devRef .tc main_arg2) = X (Proc.devRef .tc main_arg2) := by
  after_results <;> rfl

end Cert.KernelIdeal.KPrefix

end
-- ==== Proof.MatmulRegion.lean ====
/-
  The first region is the linear transform. Its grid has ten points; point `t` works on rows
  `10000·t … 10000·t + 9999` of the [100000, 128] features and on the whole [128, 128] weight matrix. The body rounds
  both blocks to bf16 (the identity on extended reals), transposes the weights and multiplies into a zero accumulator,
  so at an index `(p, q)` of its block the value is the sum over `k` of `x(p, k) · W(q, k)`. The array it leaves is,
  index by index, `∑ₖ x(i₀, k) · W(i₁, k)` — the product of the features with the transposed weights —: the ten blocks are
  the restrictions of that one function and together they cover every row.
-/
import proofs.«119251_j37220186587487_1_alg».proof.Proof.Gen.KernelIdeal.Frame
import proofs.«119251_j37220186587487_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatmulRegion

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl

/-- The block product's left operand is read at the output's row. -/
theorem lhs_row (i : S10000x128.Idx) (κ : dot_S10000x128_S128x128_S10000x128_1_0_0_1_n_n.contr.Idx) :
    (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The block product's right operand is read at the output's column. -/
theorem rhs_col (i : S10000x128.Idx) (κ : dot_S10000x128_S128x128_S10000x128_1_0_0_1_n_n.contr.Idx) :
    (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's value at `(p, q)` of its block: row `p` of the features' block against row `q` of the weights. -/
theorem pay_apply (x0 : FVec Ideal S10000x128 .f32) (x1 : FVec Ideal S128x128 .f32) (p : Fin 10000) (q : Fin 128) :
    k0_pay1 x0 x1 (ix2 p q) = ∑ k : Fin 128, x0 (ix2 p k) * x1 (ix2 q k) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact rhs_col _ _)
  rw [el, er, truncf_apply, transpose_ix2_apply, truncf_apply]

/-- The index maps over the grid: the features' block and the output's block are block `t` of the rows, the weights
    are their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The features' block at point `t`, read at `(p, k)`, is the array at row `10000·t + p`, column `k`. -/
theorem read_x (c : Dev nD) (t : Fin cfg0.N) (p : Fin 10000) (k : Fin 128) (i : S100000x128.Idx)
    (h0 : (i 0).val = t.val * 10000 + p.val) (h1 : (i 1).val = k.val) :
    iblk0 V c 0 t (ix2 p k) = V c main_arg0 i := by
  obtain ⟨e0, e1, e2, e3, e4, e5⟩ := idx_facts t
  show V c main_arg0 (((cfg0.win 0).blk t).view.emb (ix2 p k)) = V c main_arg0 i
  refine congrArg (V c main_arg0) (funext fun a => Fin.ext ?_)
  match a with
  | ⟨0, _⟩ => show win0_0.index t (0 : Fin 2) * 10000 + 1 * p.val = (i 0).val; omega
  | ⟨1, _⟩ => show win0_0.index t (1 : Fin 2) * 128 + 1 * k.val = (i 1).val; omega

/-- The weights' one block, read at `(q, k)`, is the matrix at `(q, k)`. -/
theorem read_w (c : Dev nD) (t : Fin cfg0.N) (q k : Fin 128) (j : S128x128.Idx)
    (h0 : (j 0).val = q.val) (h1 : (j 1).val = k.val) :
    iblk0 V c 1 t (ix2 q k) = V c main_arg2 j := by
  obtain ⟨e0, e1, e2, e3, e4, e5⟩ := idx_facts t
  show V c main_arg2 (((cfg0.win 1).blk t).view.emb (ix2 q k)) = V c main_arg2 j
  refine congrArg (V c main_arg2) (funext fun a => Fin.ext ?_)
  match a with
  | ⟨0, _⟩ => show win0_1.index t (0 : Fin 2) * 128 + 1 * q.val = (j 0).val; omega
  | ⟨1, _⟩ => show win0_1.index t (1 : Fin 2) * 128 + 1 * k.val = (j 1).val; omega

/-- What point `t` writes back is block `t` of `linear` of the two arrays as the region finds them. -/
theorem flushed_eq (c : Dev nD) (t : Fin cfg0.N) :
    (dat0 V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x128) zero2]
  obtain ⟨e0, e1, e2, e3, e4, e5⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = linear (V c main_arg0) (V c main_arg2) (((cfg0.win 2).blk t).view.emb (ix2 p q))
  have hi0 : ((((cfg0.win 2).blk t).view.emb (ix2 p q)) 0).val = t.val * 10000 + p.val := by
    show win0_2.index t (0 : Fin 2) * 10000 + 1 * p.val = _; omega
  have hi1 : ((((cfg0.win 2).blk t).view.emb (ix2 p q)) 1).val = q.val := by
    show win0_2.index t (1 : Fin 2) * 128 + 1 * q.val = _; omega
  rw [pay_apply]
  unfold linear
  refine Finset.sum_congr rfl fun k _ => ?_
  rw [read_x V c t p k (ix2 ⟨((((cfg0.win 2).blk t).view.emb (ix2 p q)) 0).val, ((((cfg0.win 2).blk t).view.emb (ix2 p q)) 0).isLt⟩ k) hi0 rfl,
    read_w V c t q k (ix2 ⟨((((cfg0.win 2).blk t).view.emb (ix2 p q)) 1).val, ((((cfg0.win 2).blk t).view.emb (ix2 p q)) 1).isLt⟩ k) hi1 rfl]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row lies in the block of the point numbered by the row divided by the block height. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the features times the transposed weights, whatever the entry contents. -/
theorem final (c : Dev nD) : (dat0 V c).arrAt 2 cfg0.N = linear (V c main_arg0) (V c main_arg2) :=
  (dat0 V c).arrAt_eq_of_cover 2 (linear (V c main_arg0) (V c main_arg2)) (fun t _ => flushed_eq V c t) cover

end Cert.KernelIdeal.MatmulRegion

end
-- ==== Proof.LibColumnBroadcast.lean ====
/-
  A column broadcast along the rows' second axis, read at an index: a general layout fact, independent of any program.
-/
import Idealize.ShloMosaic.Lib.Pipeline.Value
import Idealize.ShloMosaic.Lib.ValueIdx

namespace Idealize.ShloMosaic.ValueIdx

open Idealize.ShloMosaic

variable {α : Type}

/-- An `[a, 1]` array (one column) broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of an `[a, 1]` array (one column) to `[a, b]` along both axes reads, at `(p, c)`, the column's
    entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of a `[1, b]` array (one row) to `[a, b]` along both axes reads, at `(p, c)`, the row's entry
    of column `c`. -/
theorem broadcastInDim_1b_ab_apply {a b : ℕ} (v : (⟨2, ![1, b]⟩ : Shape).Idx → α)
    (h : (⟨2, ![1, b]⟩ : Shape).BroadcastsInDim ⟨2, ![a, b]⟩ ![0, 1])
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A `broadcast_in_dim` of an `[a]` vector to `[a, 1]` (its entries down one column) reads, at `(p, u)`, entry `p`. -/
theorem broadcastInDim_a_a1_apply {a : ℕ} (v : (⟨1, ![a]⟩ : Shape).Idx → α)
    (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A `broadcast_in_dim` of a `[b]` vector to `[1, b]` (its entries along one row) reads, at `(u, c)`, entry `c`. -/
theorem broadcastInDim_b_1b_apply {b : ℕ} (v : (⟨1, ![b]⟩ : Shape).Idx → α)
    (h : (⟨1, ![b]⟩ : Shape).BroadcastsInDim ⟨2, ![1, b]⟩ ![1])
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Idealize.ShloMosaic.ValueIdx
-- ==== Proof.ScaleRegion.lean ====
/-
  The second region scales each gathered message row by its edge's normalisation factor. Its grid has 170 points;
  point `t` works on rows `10000·t … 10000·t + 9999` of the [1700000, 128] messages and of the [1700000, 1] column of
  factors. At an index `(p, q)` of its block the body's value is `xg(p, q) · nrm(p, 0)`, so the array it leaves is,
  index by index, `xg(i₀, i₁) · nrm(i₀, 0)`: the 170 blocks are the restrictions of that one function and together
  they cover every row.
-/
import proofs.«119251_j37220186587487_1_alg».proof.Proof.Gen.KernelIdeal.Frame
import proofs.«119251_j37220186587487_1_alg».proof.Proof.Spec
import proofs.«119251_j37220186587487_1_alg».proof.Proof.LibColumnBroadcast
import Idealize.ShloMosaic.Lib.Pipeline.Value
import Idealize.ShloMosaic.Lib.ValueIdx

set_option maxRecDepth 16384

noncomputable section

namespace Cert.KernelIdeal.ScaleRegion

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl

/-- The body's value at `(p, q)` of its block: the block's entry times the factor of row `p`. -/
theorem pay_apply (x0 : FVec Ideal S10000x128 .f32) (x1 : FVec Ideal S10000x1 .f32) (p : Fin 10000) (q : Fin 128) :
    k1_pay1 x0 x1 (ix2 p q) = x0 (ix2 p q) * x1 (ix2 p (0 : Fin 1)) := by
  unfold k1_pay1
  rw [mulf_apply, shapeCast_self, broadcastTo_a1_ab_apply, shapeCast_self, shapeCast_self]

/-- The index maps over the grid: all three windows are at block `t` of the rows. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The messages' block at point `t`, read at `(p, q)`, is the array at row `10000·t + p`, column `q`. -/
theorem read_msg (c : Dev nD) (t : Fin cfg1.N) (p : Fin 10000) (q : Fin 128) (i : S1700000x128.Idx)
    (h0 : (i 0).val = t.val * 10000 + p.val) (h1 : (i 1).val = q.val) :
    iblk1 V c 0 t (ix2 p q) = V c main_v37 i := by
  obtain ⟨e0, e1, e2, e3, e4, e5⟩ := idx_facts t
  show V c main_v37 (((cfg1.win 0).blk t).view.emb (ix2 p q)) = V c main_v37 i
  refine congrArg (V c main_v37) (funext fun a => Fin.ext ?_)
  match a with
  | ⟨0, _⟩ => show win1_0.index t (0 : Fin 2) * 10000 + 1 * p.val = (i 0).val; omega
  | ⟨1, _⟩ => show win1_0.index t (1 : Fin 2) * 128 + 1 * q.val = (i 1).val; omega

/-- The factors' block at point `t`, read at `(p, 0)`, is the column at row `10000·t + p`. -/
theorem read_nrm (c : Dev nD) (t : Fin cfg1.N) (p : Fin 10000) (k : S1700000x1.Idx)
    (h0 : (k 0).val = t.val * 10000 + p.val) :
    iblk1 V c 1 t (ix2 p (0 : Fin 1)) = V c main_v38 k := by
  obtain ⟨e0, e1, e2, e3, e4, e5⟩ := idx_facts t
  show V c main_v38 (((cfg1.win 1).blk t).view.emb (ix2 p (0 : Fin 1))) = V c main_v38 k
  refine congrArg (V c main_v38) (funext fun a => Fin.ext ?_)
  match a with
  | ⟨0, _⟩ => show win1_1.index t (0 : Fin 2) * 10000 + 1 * p.val = (k 0).val; omega
  | ⟨1, _⟩ =>
    have hk : (k 1).val < 1 := (k 1).isLt
    show win1_1.index t (1 : Fin 2) * 1 + 1 * 0 = (k 1).val; omega

/-- What point `t` writes back is block `t` of `scaleRows` of the two arrays as the region finds them. -/
theorem flushed_eq (c : Dev nD) (t : Fin cfg1.N) :
    (dat1 V c).flushed 2 t = ((cfg1.win 2).blk t).view.read (Elt Ideal) (scaleRows (V c main_v37) (V c main_v38)) := by
  show (cfg1.win 2).cut (grid1.coords t) ((dat1 V c).after 2 t) = _
  rw [after1_2]
  unfold out1_2
  rw [View.canon_unit_zero zero2]
  simp only [View.ld_unit_zero (S := S10000x128) zero2, View.ld_unit_zero (S := S10000x1) zero2]
  obtain ⟨e0, e1, e2, e3, e4, e5⟩ := idx_facts t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q) = scaleRows (V c main_v37) (V c main_v38) (((cfg1.win 2).blk t).view.emb (ix2 p q))
  have hi0 : ((((cfg1.win 2).blk t).view.emb (ix2 p q)) 0).val = t.val * 10000 + p.val := by
    show win1_2.index t (0 : Fin 2) * 10000 + 1 * p.val = _; omega
  have hi1 : ((((cfg1.win 2).blk t).view.emb (ix2 p q)) 1).val = q.val := by
    show win1_2.index t (1 : Fin 2) * 128 + 1 * q.val = _; omega
  rw [pay_apply, read_msg V c t p q _ hi0 hi1,
    read_nrm V c t p (ix2 ⟨((((cfg1.win 2).blk t).view.emb (ix2 p q)) 0).val, ((((cfg1.win 2).blk t).view.emb (ix2 p q)) 0).isLt⟩ (0 : Fin 1)) hi0]
  rfl

/-- An index of the array is in point `t`'s block iff each coordinate is in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Every row lies in the block of the point numbered by the row divided by the block height. -/
theorem cover (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := N_1
  let t : Fin cfg1.N := ⟨(i 0).val / 10000, by rw [hN]; omega⟩
  obtain ⟨e0, e1, e2, e3, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the messages scaled row by row, whatever the entry contents. -/
theorem final (c : Dev nD) : (dat1 V c).arrAt 2 cfg1.N = scaleRows (V c main_v37) (V c main_v38) :=
  (dat1 V c).arrAt_eq_of_cover 2 (scaleRows (V c main_v37) (V c main_v38)) (fun t _ => flushed_eq V c t) cover

end Cert.KernelIdeal.ScaleRegion

end
-- ==== Proof.BiasRegion.lean ====
/-
  The third region adds the bias row to every row of the aggregated messages. Its grid has ten points; point `t`
  works on rows `10000·t … 10000·t + 9999` of the [100000, 128] array (all 128 columns) and on the whole bias vector.
  At an index `(p, q)` of its block the body's value is `agg(p, q) + b(q)`, so the array it leaves is, index by index,
  `agg(i₀, i₁) + b(i₁)`: the ten blocks are the restrictions of that one function and together they cover every row.
-/
import proofs.«119251_j37220186587487_1_alg».proof.Proof.Gen.KernelIdeal.Frame
import proofs.«119251_j37220186587487_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BiasRegion

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a <;> rfl

/-- The body's value at `(p, q)` of its block: the block's entry plus the bias at column `q`. -/
theorem pay_apply (x0 : FVec Ideal S10000x128 .f32) (x1 : FVec Ideal S128 .f32) (p : Fin 10000) (q : Fin 128) :
    k2_pay1 x0 x1 (ix2 p q) = x0 (ix2 p q) + x1 (ix1 q) := by
  unfold k2_pay1
  rw [addf_apply, shapeCast_self, broadcastTo_1b_ab_apply, shapeCast_a_1a_apply]

/-- The index maps over the grid: the aggregate's block and the output's block are block `t` of the rows, the bias is
    its one block. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The aggregate's block at point `t`, read at `(p, q)`, is the array at row `10000·t + p`, column `q`. -/
theorem read_agg (c : Dev nD) (t : Fin cfg2.N) (p : Fin 10000) (q : Fin 128) (i : S100000x128.Idx)
    (h0 : (i 0).val = t.val * 10000 + p.val) (h1 : (i 1).val = q.val) :
    iblk2 V c 0 t (ix2 p q) = V c main_v42 i := by
  obtain ⟨e0, e1, e2, e3, e4⟩ := idx_facts t
  show V c main_v42 (((cfg2.win 0).blk t).view.emb (ix2 p q)) = V c main_v42 i
  refine congrArg (V c main_v42) (funext fun a => Fin.ext ?_)
  match a with
  | ⟨0, _⟩ => show win2_0.index t (0 : Fin 2) * 10000 + 1 * p.val = (i 0).val; omega
  | ⟨1, _⟩ => show win2_0.index t (1 : Fin 2) * 128 + 1 * q.val = (i 1).val; omega

/-- The bias's one block, read at `q`, is the bias at `q`. -/
theorem read_bias (c : Dev nD) (t : Fin cfg2.N) (q : Fin 128) (k : S128.Idx) (h0 : (k 0).val = q.val) :
    iblk2 V c 1 t (ix1 q) = V c main_arg3 k := by
  obtain ⟨e0, e1, e2, e3, e4⟩ := idx_facts t
  show V c main_arg3 (((cfg2.win 1).blk t).view.emb (ix1 q)) = V c main_arg3 k
  refine congrArg (V c main_arg3) (funext fun a => Fin.ext ?_)
  match a with
  | ⟨0, _⟩ => show win2_1.index t (0 : Fin 1) * 128 + 1 * q.val = (k 0).val; omega

/-- What point `t` writes back is block `t` of `addRow` of the two arrays as the region finds them. -/
theorem flushed_eq (c : Dev nD) (t : Fin cfg2.N) :
    (dat2 V c).flushed 2 t = ((cfg2.win 2).blk t).view.read (Elt Ideal) (addRow (V c main_v42) (V c main_arg3)) := by
  show (cfg2.win 2).cut (grid2.coords t) ((dat2 V c).after 2 t) = _
  rw [after2_2]
  unfold out2_2
  rw [View.canon_unit_zero zero2]
  simp only [View.ld_unit_zero (S := S10000x128) zero2, View.ld_unit_zero (S := S128) zero1]
  obtain ⟨e0, e1, e2, e3, e4⟩ := idx_facts t
  funext j
  obtain ⟨p, q, rfl⟩ : ∃ (p : Fin 10000) (q : Fin 128), j = ix2 p q := ⟨j 0, j 1, eq_ix2 j⟩
  show k2_pay1 (iblk2 V c 0 t) (iblk2 V c 1 t) (ix2 p q) = addRow (V c main_v42) (V c main_arg3) (((cfg2.win 2).blk t).view.emb (ix2 p q))
  have hi0 : ((((cfg2.win 2).blk t).view.emb (ix2 p q)) 0).val = t.val * 10000 + p.val := by
    show win2_2.index t (0 : Fin 2) * 10000 + 1 * p.val = _; omega
  have hi1 : ((((cfg2.win 2).blk t).view.emb (ix2 p q)) 1).val = q.val := by
    show win2_2.index t (1 : Fin 2) * 128 + 1 * q.val = _; omega
  rw [pay_apply, read_agg V c t p q _ hi0 hi1, read_bias V c t q (ix1 ⟨((((cfg2.win 2).blk t).view.emb (ix2 p q)) 1).val, ((((cfg2.win 2).blk t).view.emb (ix2 p q)) 1).isLt⟩) hi1]
  rfl

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v43).slice (win2_2.rect t)).set ↔ _
  rw [View.set_slice_whole, Rect.mem_set_unit]
  exact Iff.rfl

/-- Every row lies in the block of the point numbered by the row divided by the block height. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3, e4⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region: the aggregate plus the bias row, whatever the entry contents. -/
theorem final (c : Dev nD) : (dat2 V c).arrAt 2 cfg2.N = addRow (V c main_v42) (V c main_arg3) :=
  (dat2 V c).arrAt_eq_of_cover 2 (addRow (V c main_v42) (V c main_arg3)) (fun t _ => flushed_eq V c t) cover

end Cert.KernelIdeal.BiasRegion

end
-- ==== Proof.KValue.lean ====
/-
  The idealized kernel's result as a function of its arguments. The buffer contents at the eight segment boundaries
  are followed from the launch to the return: the first three stretches compute, from the edge list alone, the edges'
  sources, destinations and factors; the matmul region leaves `x · Wᵀ`; the next stretch gathers its rows at the
  sources and lays the factors out as a column; the scaling region multiplies row by row; the next stretch scatter-adds
  the scaled rows at the destinations; the bias region adds the bias row. A buffer that a segment does not write keeps
  its contents through it. Composed, the result is the graph-convolution layer `Spec.gcn` of the four arguments.
-/
import proofs.«119251_j37220186587487_1_alg».proof.Proof.Gen.KernelIdeal.Frame
import proofs.«119251_j37220186587487_1_alg».proof.Proof.Spec
import proofs.«119251_j37220186587487_1_alg».proof.Proof.KPrefix
import proofs.«119251_j37220186587487_1_alg».proof.Proof.MatmulRegion
import proofs.«119251_j37220186587487_1_alg».proof.Proof.ScaleRegion
import proofs.«119251_j37220186587487_1_alg».proof.Proof.BiasRegion
import Idealize.ShloMosaic.Lib.StableHlo.Run

set_option maxRecDepth 16384

noncomputable section

namespace Cert.KernelIdeal.KValue

open Cert.KernelIdeal Cert.KernelIdeal.Facts₀ Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the matmul region's entry: what the first three stretches computed -/

theorem entry_src : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  rw [KPrefix.third_src, KPrefix.second_src, KPrefix.first_src]

theorem entry_dst : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  rw [KPrefix.third_dst, KPrefix.second_dst, KPrefix.first_dst]

theorem entry_norm : W3 m ρ c (Proc.devRef .tc main_v29) = edgeNorm (F := Ideal) (m ((c : Thread nD τ).loc main_arg1)) := by
  show StableHlo.after hostOps0_2 (StableHlo.after hostOps0_1 (StableHlo.after hostOps0 (W0 m ρ c))) (Proc.devRef .tc main_v29) = _
  rw [KPrefix.third_norm, KPrefix.second_sel, KPrefix.second_src, KPrefix.second_dst, KPrefix.first_pos, KPrefix.first_rsqrt,
    KPrefix.first_zero, KPrefix.first_src, KPrefix.first_dst]
  rfl

theorem entry_x : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  rw [KPrefix.third_x, KPrefix.second_x, KPrefix.first_x]

theorem entry_w : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  rw [KPrefix.third_w, KPrefix.second_w, KPrefix.first_w]

/-! ## Through the matmul region: its output is the linear transform; what it does not write is kept -/

theorem mm_out : W4 m ρ c (Proc.devRef .tc main_v30)
    = linear (m ((c : Thread nD τ).loc main_arg0)) (m ((c : Thread nD τ).loc main_arg2)) := by
  refine (W4_arr m ρ c 2).trans ((MatmulRegion.final (V3 m ρ) c).trans ?_)
  show linear (W3 m ρ c (Proc.devRef .tc main_arg0)) (W3 m ρ c (Proc.devRef .tc main_arg2)) = _
  rw [entry_x, entry_w]

theorem mm_src : W4 m ρ c (Proc.devRef .tc main_v3) = srcOf (m ((c : Thread nD τ).loc main_arg1)) :=
  (W4_of_ne m ρ c main_v3 (by decide)).trans (entry_src m ρ c)
theorem mm_dst : W4 m ρ c (Proc.devRef .tc main_v6) = dstOf (m ((c : Thread nD τ).loc main_arg1)) :=
  (W4_of_ne m ρ c main_v6 (by decide)).trans (entry_dst m ρ c)
theorem mm_norm : W4 m ρ c (Proc.devRef .tc main_v29) = edgeNorm (F := Ideal) (m ((c : Thread nD τ).loc main_arg1)) :=
  (W4_of_ne m ρ c main_v29 (by decide)).trans (entry_norm m ρ c)

/-! ## The stretch before the scaling region: the gather at the sources, the factors as a column -/

theorem gathered : W5 m ρ c (Proc.devRef .tc main_v37)
    = Host.gather gather_S100000x128_S1700000x1_S1700000x128_1_0_n_n_0_1_1128 (W4 m ρ c (Proc.devRef .tc main_v30)) (column (wrapNeg (W4 m ρ c (Proc.devRef .tc main_v3)))) := by
  show StableHlo.after hostOps1 (W4 m ρ c) (Proc.devRef .tc main_v37) = _
  after_results <;> rfl

theorem norm_col : W5 m ρ c (Proc.devRef .tc main_v38) = column (W4 m ρ c (Proc.devRef .tc main_v29)) := by
  show StableHlo.after hostOps1 (W4 m ρ c) (Proc.devRef .tc main_v38) = _
  after_results <;> rfl

theorem dst_kept5 : W5 m ρ c (Proc.devRef .tc main_v6) = W4 m ρ c (Proc.devRef .tc main_v6) := by
  show StableHlo.after hostOps1 (W4 m ρ c) (Proc.devRef .tc main_v6) = _
  after_results <;> rfl

/-! ## Through the scaling region -/

theorem scaled : W6 m ρ c (Proc.devRef .tc main_v39)
    = scaleRows (W5 m ρ c (Proc.devRef .tc main_v37)) (W5 m ρ c (Proc.devRef .tc main_v38)) :=
  (W6_arr m ρ c 2).trans (ScaleRegion.final (V5 m ρ) c)

theorem dst_kept6 : W6 m ρ c (Proc.devRef .tc main_v6) = W5 m ρ c (Proc.devRef .tc main_v6) :=
  W6_of_ne m ρ c main_v6 (by decide)

/-! ## The stretch before the bias region: the scatter-add at the destinations -/

theorem aggregated : W7 m ρ c (Proc.devRef .tc main_v42)
    = Host.scatterAdd (F := Ideal) scatter_S100000x128_S1700000x1_S1700000x128_1_0_0_1
        (broadcastInDim S100000x128 ![] Facts₀.bcast_S_S100000x128 (constant S_ .f32 0x00000000#32))
        (column (W6 m ρ c (Proc.devRef .tc main_v6))) (W6 m ρ c (Proc.devRef .tc main_v39)) := by
  show StableHlo.after hostOps2 (W6 m ρ c) (Proc.devRef .tc main_v42) = _
  after_results <;> rfl

/-- The bias is an input of the last region and of nothing before it: it is still the argument. -/
theorem bias_arg : W7 m ρ c (Proc.devRef .tc main_arg3) = m ((c : Thread nD τ).loc main_arg3) :=
  (((W8_arr m ρ c 1).trans (((dat2 (V7 m ρ) c).arrAt_in 1 rfl _).trans (A_eq2 (V7 m ρ) c 1))).symm).trans (W8_main_arg3 m ρ c)

/-! ## Through the bias region, and the whole -/

theorem biased : W8 m ρ c (Proc.devRef .tc main_v43)
    = addRow (W7 m ρ c (Proc.devRef .tc main_v42)) (W7 m ρ c (Proc.devRef .tc main_arg3)) :=
  (W8_arr m ρ c 2).trans (BiasRegion.final (V7 m ρ) c)

/-- The result buffer at the return is the layer of the four arguments. -/
theorem result_eq : W8 m ρ c (Proc.devRef .tc main_v43)
    = gcn (m ((c : Thread nD τ).loc main_arg0)) (m ((c : Thread nD τ).loc main_arg1))
        (m ((c : Thread nD τ).loc main_arg2)) (m ((c : Thread nD τ).loc main_arg3)) := by
  rw [biased, bias_arg, aggregated, scaled, gathered, norm_col, dst_kept6, dst_kept5, mm_out, mm_src, mm_dst, mm_norm]
  rfl

end Cert.KernelIdeal.KValue

end
-- ==== Proof.RPrefix.lean ====
/-
  The reference's first forty operations, in the same three stretches as the idealized kernel's program, read one at a
  time from ARBITRARY entry contents `X`: the edges' sources and destinations, the positive-degree mask, the inverse
  square roots, the selection between them and zero, the edges' factors; the features, the weights and the bias are left
  alone. The values are stated by the specification's functions of the edge list.
-/
import proofs.«119251_j37220186587487_1_alg».proof.Proof.RefOps
import proofs.«119251_j37220186587487_1_alg».proof.Proof.Spec
import Idealize.ShloMosaic.Lib.StableHlo.Run

set_option maxRecDepth 16384

noncomputable section

namespace Cert.ReferenceIdeal.RPrefix

open Cert.ReferenceIdeal Cert.ReferenceIdeal.RefRun Cert.KernelIdeal.Spec
open Idealize.ShloMosaic Idealize.ShloMosaic.TcCoe Idealize.SL.Sem Idealize.ShloMosaic.StableHlo

variable (X : Valuation τ sig (Elt Ideal))

/-! ## The third stretch: the edges' factors from the inverse square-root degrees and the endpoints -/

set_option maxHeartbeats 4000000 in
theorem third_norm : (after (opsA2 (F := Ideal)) X (Proc.devRef .tc main_v29) : FVec Ideal S1700000 .f32)
    = mulf (F := Ideal) (s := S1700000) (φ := .f32) (Host.gather gather_S100000_S1700000x1_S1700000_n_0_n_n_0_1_1 (X (Proc.devRef .tc main_v14)) (column (wrapNeg (X (Proc.devRef .tc main_v3)))))
        (Host.gather gather_S100000_S1700000x1_S1700000_n_0_n_n_0_1_1 (X (Proc.devRef .tc main_v14)) (column (wrapNeg (X (Proc.devRef .tc main_v6))))) := by
  after_results <;> rfl

set_option maxHeartbeats 4000000 in
theorem third_src : after (opsA2 (F := Ideal)) X (Proc.devRef .tc main_v3) = X (Proc.devRef .tc main_v3) := by
  after_results <;> rfl
set_option maxHeartbeats 4000000 in
theorem third_dst : after (opsA2 (F := Ideal)) X (Proc.devRef .tc main_v6) = X (Proc.devRef .tc main_v6) := by
  after_results <;> rfl
set_option maxHeartbeats 4000000 in
theorem third_x : after (opsA2 (F := Ideal)) X (Proc.devRef .tc main_arg0) = X (Proc.devRef .tc main_arg0) := by
  after_results <;> rfl
set_option maxHeartbeats 4000000 in
theorem third_w : after (opsA2 (F := Ideal)) X (Proc.devRef .tc main_arg2) = X (Proc.devRef .tc main_arg2) := by
  after_results <;> rfl
set_option maxHeartbeats 4000000 in
theorem third_b : after (opsA2 (F := Ideal)) X (Proc.devRef .tc main_arg3) = X (Proc.devRef .tc main_arg3) := by
  after_results <;> rfl

/-! ## The second stretch: the selection between the inverse square root and zero -/

set_option maxHeartbeats 4000000 in
theorem second_sel : (after (opsA1 (F := Ideal)) X (Proc.devRef .tc main_v14) : FVec Ideal S100000 .f32)
    = select (X (Proc.devRef .tc main_v12)) (X (Proc.devRef .tc main_v13))
        (broadcastInDim S100000 ![] Cert.ReferenceIdeal.Facts₀.bcast_S_S100000 (X (Proc.devRef .tc main_cst_2))) := by
  after_results <;> rfl

set_option maxHeartbeats 4000000 in
theorem second_src : after (opsA1 (F := Ideal)) X (Proc.devRef .tc main_v3) = X (Proc.devRef .tc main_v3) := by
  after_results <;> rfl
set_option maxHeartbeats 4000000 in
theorem second_dst : after (opsA1 (F := Ideal)) X (Proc.devRef .tc main_v6) = X (Proc.devRef .tc main_v6) := by
  after_results <;> rfl
set_option maxHeartbeats 4000000 in
theorem second_x : after (opsA1 (F := Ideal)) X (Proc.devRef .tc main_arg0) = X (Proc.devRef .tc main_arg0) := by
  after_results <;> rfl
set_option maxHeartbeats 4000000 in
theorem second_w : after (opsA1 (F := Ideal)) X (Proc.devRef .tc main_arg2) = X (Proc.devRef .tc main_arg2) := by
  after_results <;> rfl
set_option maxHeartbeats 4000000 in
theorem second_b : after (opsA1 (F := Ideal)) X (Proc.devRef .tc main_arg3) = X (Proc.devRef .tc main_arg3) := by
  after_results <;> rfl

/-! ## The first stretch: the endpoints, the degrees, their comparison with zero and their inverse square roots -/

set_option maxHeartbeats 4000000 in
theorem first_src : (after (opsA0 (F := Ideal)) X (Proc.devRef .tc main_v3) : IVec S1700000 32) = srcOf (X (Proc.devRef .tc main_arg1)) := by
  after_results <;> rfl
set_option maxHeartbeats 4000000 in
theorem first_dst : (after (opsA0 (F := Ideal)) X (Proc.devRef .tc main_v6) : IVec S1700000 32) = dstOf (X (Proc.devRef .tc main_arg1)) := by
  after_results <;> rfl
set_option maxHeartbeats 4000000 in
theorem first_pos : (after (opsA0 (F := Ideal)) X (Proc.devRef .tc main_v12) : IVec S100000 1)
    = cmpf .ogt (degree (F := Ideal) (dstOf (X (Proc.devRef .tc main_arg1)))) (broadcastInDim S100000 ![] Cert.ReferenceIdeal.Facts₀.bcast_S_S100000 (constant S_ .f32 0x00000000#32)) := by
  after_results <;> rfl
set_option maxHeartbeats 4000000 in
theorem first_rsqrt : (after (opsA0 (F := Ideal)) X (Proc.devRef .tc main_v13) : FVec Ideal S100000 .f32)
    = Host.rsqrt (degree (F := Ideal) (dstOf (X (Proc.devRef .tc main_arg1)))) := by
  after_results <;> rfl
set_option maxHeartbeats 4000000 in
theorem first_zero : (after (opsA0 (F := Ideal)) X (Proc.devRef .tc main_cst_2) : FVec Ideal S_ .f32) = constant (F := Ideal) S_ .f32 0x00000000#32 := by
  after_results <;> rfl
set_option maxHeartbeats 4000000 in
theorem first_x : after (opsA0 (F := Ideal)) X (Proc.devRef .tc main_arg0) = X (Proc.devRef .tc main_arg0) := by
  after_results <;> rfl
set_option maxHeartbeats 4000000 in
theorem first_w : after (opsA0 (F := Ideal)) X (Proc.devRef .tc main_arg2) = X (Proc.devRef .tc main_arg2) := by
  after_results <;> rfl
set_option maxHeartbeats 4000000 in
theorem first_b : after (opsA0 (F := Ideal)) X (Proc.devRef .tc main_arg3) = X (Proc.devRef .tc main_arg3) := by
  after_results <;> rfl

end Cert.ReferenceIdeal.RPrefix

end
-- ==== Proof.RefValue.lean ====
/-
  The reference's result as a function of its arguments. Its sixty-one host operations are composed into one term
  of the launch contents; that term differs from the layer `Spec.gcn` only in how its three dense steps are
  spelt: a `dot_general` of the features with the transposed weights (at an index, the sum over the contracted axis of
  the products), a product with the edges' factors broadcast along the rows, and a sum with the bias broadcast down
  the columns. Each is the specification's index-by-index function; the index arithmetic, the gathers and the
  scatter-adds are the same operations on both sides.
-/
import proofs.«119251_j37220186587487_1_alg».proof.Proof.RefOps
import proofs.«119251_j37220186587487_1_alg».proof.Proof.RPrefix
import Idealize.ShloMosaic.Lib.Pipeline.Frame
import proofs.«119251_j37220186587487_1_alg».proof.Proof.Spec
import proofs.«119251_j37220186587487_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.RefRun Cert.KernelIdeal.Spec
open Idealize.ShloMosaic Idealize.ShloMosaic.TcCoe Idealize.SL.Sem Idealize.ShloMosaic.StableHlo Idealize.ShloMosaic.ValueIdx

/-! ## The three dense steps, read at an index -/

/-- The product's left operand is read at the output's row. -/
theorem lhs_row (i : S100000x128.Idx) (κ : dot_S100000x128_S128x128_S100000x128_1_0_0_1_n_n.contr.Idx) :
    (dot_S100000x128_S128x128_S100000x128_1_0_0_1_n_n.lhsIdx i κ 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The product's right operand is read at the output's column. -/
theorem rhs_col (i : S100000x128.Idx) (κ : dot_S100000x128_S128x128_S100000x128_1_0_0_1_n_n.contr.Idx) :
    (dot_S100000x128_S128x128_S100000x128_1_0_0_1_n_n.rhsIdx i κ 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of the features with the transposed weights is `linear`. -/
theorem dot_eq (x : FVec Ideal S100000x128 .f32) (W : FVec Ideal S128x128 .f32) :
    Host.dotGeneral dot_S100000x128_S128x128_S100000x128_1_0_0_1_n_n none x (transpose S128x128 [1, 0] W Facts₀.transposes_S128x128_S128x128_1_0) = linear x W := by
  funext i
  obtain ⟨r, o, rfl⟩ : ∃ (r : Fin 100000) (o : Fin 128), i = ix2 r o := ⟨i 0, i 1, eq_ix2 i⟩
  simp only [Host.dotGeneral]
  rw [Ideal.dotGeneral_apply, ← Equiv.sum_comp (contrEquiv1 dot_S100000x128_S128x128_S100000x128_1_0_0_1_n_n 128 rfl rfl).symm]
  unfold linear
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r o) ((contrEquiv1 dot_S100000x128_S128x128_S100000x128_1_0_0_1_n_n 128 rfl rfl).symm k) = ix2 r k := funext fun a => Fin.ext (by
    match a with
    | ⟨0, _⟩ => exact lhs_row _ _
    | ⟨1, _⟩ => exact (dot_S100000x128_S128x128_S100000x128_1_0_0_1_n_n.lhsIdx_val_of_single rfl _ _).trans hk)
  have er : dot_S100000x128_S128x128_S100000x128_1_0_0_1_n_n.rhsIdx (ix2 r o) ((contrEquiv1 dot_S100000x128_S128x128_S100000x128_1_0_0_1_n_n 128 rfl rfl).symm k) = ix2 k o := funext fun a => Fin.ext (by
    match a with
    | ⟨0, _⟩ => exact (dot_S100000x128_S128x128_S100000x128_1_0_0_1_n_n.rhsIdx_val_of_single rfl _ _).trans hk
    | ⟨1, _⟩ => exact rhs_col _ _)
  rw [el, er, transpose_ix2_apply]

/-- The product with the factors' column broadcast along the rows is `scaleRows`. -/
theorem scale_eq (xg : FVec Ideal S1700000x128 .f32) (nb : FVec Ideal S1700000x1 .f32) :
    mulf xg (broadcastInDim S1700000x128 ![0, 1] Facts₀.bcast_S1700000x1_S1700000x128_0_1 nb) = scaleRows xg nb := by
  funext i
  obtain ⟨r, o, rfl⟩ : ∃ (r : Fin 1700000) (o : Fin 128), i = ix2 r o := ⟨i 0, i 1, eq_ix2 i⟩
  rw [mulf_apply, broadcastInDim_a1_ab_apply]
  rfl

/-- The sum with the bias, laid out as one row and broadcast down the columns, is `addRow`. -/
theorem bias_eq (agg : FVec Ideal S100000x128 .f32) (b : FVec Ideal S128 .f32) :
    addf agg (broadcastInDim S100000x128 ![0, 1] Facts₀.bcast_S1x128_S100000x128_0_1 (broadcastInDim S1x128 ![1] Facts₀.bcast_S128_S1x128_1 b)) = addRow agg b := by
  funext i
  obtain ⟨r, o, rfl⟩ : ∃ (r : Fin 100000) (o : Fin 128), i = ix2 r o := ⟨i 0, i 1, eq_ix2 i⟩
  rw [addf_apply, broadcastInDim_1b_ab_apply, broadcastInDim_b_1b_apply]
  rfl

/-! ## The last twenty-one operations, from arbitrary entry contents -/

set_option maxHeartbeats 4000000 in
/-- The layer proper: the linear transform, the gather at the sources, the scaling by the factors' column, the
    scatter-add at the destinations, the bias — of the contents `X` the first forty operations leave. -/
theorem last_out (X : Valuation τ sig (Elt Ideal)) :
    (after (opsB (F := Ideal)) X (Proc.devRef .tc main_v47) : FVec Ideal S100000x128 .f32)
      = addf (F := Ideal) (s := S100000x128) (φ := .f32)
          (Host.scatterAdd scatter_S100000x128_S1700000x1_S1700000x128_1_0_0_1
            (broadcastInDim S100000x128 ![] Facts₀.bcast_S_S100000x128 (constant S_ .f32 0x00000000#32))
            (column (X (Proc.devRef .tc main_v6)))
            (mulf (Host.gather gather_S100000x128_S1700000x1_S1700000x128_1_0_n_n_0_1_1128
                (Host.dotGeneral (φ₁ := .f32) (φ₂ := .f32) dot_S100000x128_S128x128_S100000x128_1_0_0_1_n_n none (X (Proc.devRef .tc main_arg0))
                  (transpose (α := Ideal .f32) S128x128 [1, 0] (X (Proc.devRef .tc main_arg2)) Facts₀.transposes_S128x128_S128x128_1_0))
                (column (wrapNeg (X (Proc.devRef .tc main_v3)))))
              (broadcastInDim S1700000x128 ![0, 1] Facts₀.bcast_S1700000x1_S1700000x128_0_1 (column (X (Proc.devRef .tc main_v29))))))
          (broadcastInDim S100000x128 ![0, 1] Facts₀.bcast_S1x128_S100000x128_0_1
            (broadcastInDim S1x128 ![1] Facts₀.bcast_S128_S1x128_1 (X (Proc.devRef .tc main_arg3)))) := by
  after_results <;> rfl

/-! ## The composed term -/

variable (m : (ℓ : Loc nD τ sig) → Buf (Elt Ideal) ℓ) (c : Dev nD)

/-- The sixty-one operations are the four stretches one after the other. -/
theorem after_split (V : Valuation τ sig (Elt Ideal)) :
    after (ops (F := Ideal)) V = after opsB (after opsA2 (after opsA1 (after opsA0 V))) := by
  rw [ops_split, StableHlo.after_append, StableHlo.after_append, StableHlo.after_append]

/-- The reference's result buffer after its operations is the layer of its arguments. -/
theorem result_eq :
    after (ops (F := Ideal)) (launchContents m c) (Proc.devRef .tc main_v47)
      = gcn (m ((c.tc : Thread nD τ).loc main_arg0)) (m ((c.tc : Thread nD τ).loc main_arg1))
          (m ((c.tc : Thread nD τ).loc main_arg2)) (m ((c.tc : Thread nD τ).loc main_arg3)) := by
  rw [after_split, last_out, dot_eq, scale_eq, bias_eq,
    RPrefix.third_norm, RPrefix.third_src, RPrefix.third_dst, RPrefix.third_x, RPrefix.third_w, RPrefix.third_b,
    RPrefix.second_sel, RPrefix.second_src, RPrefix.second_dst, RPrefix.second_x, RPrefix.second_w, RPrefix.second_b,
    RPrefix.first_pos, RPrefix.first_rsqrt, RPrefix.first_zero, RPrefix.first_src, RPrefix.first_dst,
    RPrefix.first_x, RPrefix.first_w, RPrefix.first_b]
  rfl

end Cert.ReferenceIdeal.RefValue

end
-- ==== Proof.lean ====
/-
  A graph-convolution layer (self loops, symmetric normalisation, a linear transform, a scatter-add aggregation and a
  bias) computed by three kernels among host operations, against the same layer written in jnp.
  On the extended reals both programs compute one function of their four arguments, `Spec.gcn`:
    * the kernel's result is read off its run segment by segment (`KValue.result_eq`): each of its three regions leaves
      an array that is one index-by-index function of the arrays it reads — the features times the transposed weights
      (rounding the operands to bf16 is the identity here, and a block product into a zero accumulator is the plain sum
      over the contracted axis), the gathered rows times their edges' factors, the aggregate plus the bias row —, its
      grid's blocks being the restrictions of that function to consecutive row ranges that cover the array;
    * the reference's composed term differs from the same function only in how those three dense steps are spelt
      (`RefValue.result_eq`).
  The index arithmetic on the edge list, the two gathers and the two scatter-adds are the same host operations of the
  same values on both sides, so nothing about them is needed beyond their being the same; in particular no finiteness
  of the inputs is used. The three frames are the generated ones (the reference's from its run); the idealization
  rewrote nothing, so `preserves` is trivial.
-/
import proofs.«119251_j37220186587487_1_alg».proof.Defs
import proofs.«119251_j37220186587487_1_alg».proof.Proof.Gen.Kernel
import proofs.«119251_j37220186587487_1_alg».proof.Proof.Gen.Kernel.Skeleton
import proofs.«119251_j37220186587487_1_alg».proof.Proof.Gen.Kernel.Launch
import proofs.«119251_j37220186587487_1_alg».proof.Proof.Gen.Kernel.Points
import proofs.«119251_j37220186587487_1_alg».proof.Proof.Gen.Kernel.Frame
import proofs.«119251_j37220186587487_1_alg».proof.Proof.Gen.KernelIdeal
import proofs.«119251_j37220186587487_1_alg».proof.Proof.Gen.KernelIdeal.Skeleton
import proofs.«119251_j37220186587487_1_alg».proof.Proof.Gen.KernelIdeal.Launch
import proofs.«119251_j37220186587487_1_alg».proof.Proof.Gen.KernelIdeal.Points
import proofs.«119251_j37220186587487_1_alg».proof.Proof.Gen.KernelIdeal.Frame
import proofs.«119251_j37220186587487_1_alg».proof.Proof.Gen.ReferenceIdeal
import proofs.«119251_j37220186587487_1_alg».proof.Proof.Gen.Pre_finite_inputs
import proofs.«119251_j37220186587487_1_alg».proof.Proof.KRun
import proofs.«119251_j37220186587487_1_alg».proof.Proof.KValue
import proofs.«119251_j37220186587487_1_alg».proof.Proof.RefOps
import proofs.«119251_j37220186587487_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run_after (F := Ideal) m ρ)

theorem preserves : Cert.preserves_Kernel_KernelIdeal := trivial

/-- Both runs end with the result at `Spec.gcn` of their arguments, and the arguments agree. -/
theorem algebraic : Cert.algebraic_KernelIdeal_ReferenceIdeal := by
  intro m ρ m' ρ' _ hagree
  refine ⟨fun c => Cert.KernelIdeal.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.result_eq m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run_after (F := Ideal) m' ρ')
    rw [Cert.ReferenceIdeal.RefValue.result_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
